-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x512 : Shape := ⟨3, ![64, 256, 512]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S64x256x512 .f32) (main_arg1 : FVec F S64x256x512 .f32) (main_arg2 : FVec F S1024x256 .f32) (main_arg3 : FVec F S256 .f32) (main_arg4 : FVec F S256x1 .f32) (main_arg5 : FVec F S1 .f32) : IVec S_ 1 :=
  let main_v0 : FVec F S64x256x512 .f32 := Host.absf main_arg0
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  let main_v4 : FVec F S64x256x512 .f32 := Host.absf main_arg1
  let main_cst_0 : FVec F S_ .f32 := constant S_ .f32 0x7F800000#32
  let main_v5 : FVec F S64x256x512 .f32 := broadcastInDim S64x256x512 ![] bcast_S_S64x256x512 main_cst_0
  let main_v6 : IVec S64x256x512 1 := cmpf .olt main_v4 main_v5
  let main_c_1 : IVec S_ 1 := constantI S_ 1 1#1
  let main_v7 : IVec S_ 1 := (fun x v => Host.reduce IntOp.andi x v reducesTo_S64x256x512_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S64x256x512 : Shape := ⟨3, ![64, 256, 512]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S64x1 : Shape := ⟨2, ![64, 1]⟩
abbrev S8x256x512 : Shape := ⟨3, ![8, 256, 512]⟩
abbrev S8x1 : Shape := ⟨2, ![8, 1]⟩
abbrev S8x512 : Shape := ⟨2, ![8, 512]⟩
abbrev S512x256 : Shape := ⟨2, ![512, 256]⟩
abbrev S8x256 : Shape := ⟨2, ![8, 256]⟩
abbrev S1x256 : Shape := ⟨2, ![1, 256]⟩
abbrev S8 : Shape := ⟨1, ![8]⟩
abbrev S1x1 : Shape := ⟨2, ![1, 1]⟩

abbrev nBuf : Space → Nat
  | .hbm => 7
  | .vmem => 10
  | .smem => 0
  | _ => 0

abbrev bufTy : (tb : Table) → Fin (tcTables nBuf tb) → BufTy
  | .hbm, ⟨0, _⟩ => ⟨S64x256x512, .f32⟩
  | .hbm, ⟨1, _⟩ => ⟨S64x256x512, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S64x1, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S1024x256, .f32⟩
  | .local _ .vmem, ⟨5, _⟩ => ⟨S256, .f32⟩
  | .local _ .vmem, ⟨6, _⟩ => ⟨S256x1, .f32⟩
  | .local _ .vmem, ⟨7, _⟩ => ⟨S1, .f32⟩
  | .local _ .vmem, ⟨8, _⟩ => ⟨S8x1, .f32⟩
  | .local _ .vmem, ⟨9, _⟩ => ⟨S8x1, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S8x256x512_S8x256x512_0_0_0 : ∀ a, (![0, 0, 0] : Fin 3 → Nat) a + S8x256x512.size a ≤ S8x256x512.size a
  h_S8x256x512 : 0 < S8x256x512.numel
  reduces_S8x256x512_S8x512 : S8x256x512.Reduces [1] S8x512
  inb_S1024x256_S512x256_0_0 : ∀ a, (![0, 0] : Fin 2 → Nat) a + S512x256.size a ≤ S1024x256.size a
  h_S512x256 : 0 < S512x256.numel
  bitsLt_bf16_f32 : FTy.bits .bf16 < FTy.bits .f32
  inb_S1024x256_S512x256_512_0 : ∀ a, (![512, 0] : Fin 2 → Nat) a + S512x256.size a ≤ S1024x256.size a
  inb_S256_S256_0 : ∀ a, (![0] : Fin 1 → Nat) a + S256.size a ≤ S256.size a
  h_S256 : 0 < S256.numel
  shapeCasts_S256_S1x256 : S256.ShapeCasts S1x256
  broadcasts_S1x256_S8x256 : S1x256.Broadcasts S8x256
  inb_S256x1_S256x1_0_0 : ∀ a, (![0, 0] : Fin 2 → Nat) a + S256x1.size a ≤ S256x1.size a
  h_S256x1 : 0 < S256x1.numel
  shapeCasts_S256x1_S256 : S256x1.ShapeCasts S256
  reduces_S8x256_S8 : S8x256.Reduces [1] S8
  shapeCasts_S8_S8x1 : S8.ShapeCasts S8x1
  inb_S1_S1_0 : ∀ a, (![0] : Fin 1 → Nat) a + S1.size a ≤ S1.size a
  h_S1 : 0 < S1.numel
  shapeCasts_S1_S1x1 : S1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  dot_S8x512_S512x256_S8x256_1_0_0_1_n_n_wf : DotDims.WF S8x512 S512x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S64x256x512.size a
  hwx0_0 : ∀ i : grid0.Coords, EltTy.bits .f32 = 32 ∨ (Rect.block (s := S64x256x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S64x256x512.size a
  hwx0_1 : ∀ i : grid0.Coords, EltTy.bits .f32 = 32 ∨ (Rect.block (s := S64x256x512) S8x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S64x1.size a
  hwx0_6 : ∀ i : grid0.Coords, EltTy.bits .f32 = 32 ∨ (Rect.block (s := S64x1) S8x1.size (cc0_transform_6 i) (hinb0_6 i)).WholeWords (EltTy.packing .f32)

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x256x512 : Shape := ⟨3, ![64, 256, 512]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S512x256 : Shape := ⟨2, ![512, 256]⟩
abbrev S64x256x256 : Shape := ⟨3, ![64, 256, 256]⟩
abbrev S_ : Shape := ⟨0, ![]⟩
abbrev S64x256 : Shape := ⟨2, ![64, 256]⟩
abbrev S1x256 : Shape := ⟨2, ![1, 256]⟩
abbrev S64x1 : Shape := ⟨2, ![64, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S64x256x512, .f32⟩
  | .hbm, ⟨1, _⟩ => ⟨S64x256x512, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S512x256, .f32⟩
  | .hbm, ⟨7, _⟩ => ⟨S512x256, .f32⟩
  | .hbm, ⟨8, _⟩ => ⟨S64x256x256, .f32⟩
  | .hbm, ⟨9, _⟩ => ⟨S64x256x256, .f32⟩
  | .hbm, ⟨10, _⟩ => ⟨S_, .f32⟩
  | .hbm, ⟨11, _⟩ => ⟨S64x256, .f32⟩
  | .hbm, ⟨12, _⟩ => ⟨S_, .f32⟩
  | .hbm, ⟨13, _⟩ => ⟨S64x256, .f32⟩
  | .hbm, ⟨14, _⟩ => ⟨S64x256, .f32⟩
  | .hbm, ⟨15, _⟩ => ⟨S_, .f32⟩
  | .hbm, ⟨16, _⟩ => ⟨S64x256, .f32⟩
  | .hbm, ⟨17, _⟩ => ⟨S_, .f32⟩
  | .hbm, ⟨18, _⟩ => ⟨S64x256, .f32⟩
  | .hbm, ⟨19, _⟩ => ⟨S64x256, .f32⟩
  | .hbm, ⟨20, _⟩ => ⟨S64x256, .f32⟩
  | .hbm, ⟨21, _⟩ => ⟨S1x256, .f32⟩
  | .hbm, ⟨22, _⟩ => ⟨S64x256, .f32⟩
  | .hbm, ⟨23, _⟩ => ⟨S64x256, .f32⟩
  | .hbm, ⟨24, _⟩ => ⟨S64x1, .f32⟩
  | .hbm, ⟨25, _⟩ => ⟨S1x1, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S_, .f32⟩
  | .hbm, ⟨31, _⟩ => ⟨S64x1, .f32⟩
  | .hbm, ⟨32, _⟩ => ⟨S64x1, .f32⟩
  | .hbm, ⟨33, _⟩ => ⟨S_, .f32⟩
  | .hbm, ⟨34, _⟩ => ⟨S64x1, .f32⟩
  | .hbm, ⟨35, _⟩ => ⟨S64x1, .f32⟩
  | _, _ => ⟨S64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  slices_S1024x256_S512x256_0_0 : S1024x256.Slices ![0, 0] S512x256
  slices_S1024x256_S512x256_512_0 : S1024x256.Slices ![512, 0] S512x256
  reducesTo_S64x256x256_S64x256_d1 : S64x256x256.ReducesTo [1] S64x256
  h_S_ : 0 < S_.numel
  bcast_S_S64x256 : S_.BroadcastsInDim S64x256 (![] : Fin 0 → Fin S64x256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S64x256x512_S512x256_S64x256x256_2_0_01_1_n_n_wf : DotDims.WF S64x256x512 S512x256 S64x256x256 [2] [0] [0, 1] [1] [] []
  dot_S64x256_S256x1_S64x1_1_0_0_1_n_n_wf : DotDims.WF S64x256 S256x1 S64x1 [1] [0] [0] [1] [] []

variable [Facts₀]

def dot_S64x256x512_S512x256_S64x256x256_2_0_01_1_n_n : DotDims S64x256x512 S512x256 S64x256x256 where
  lhsContracting := [2]
  rhsContracting := [0]
  lhsNonContracting := [0, 1]
  rhsNonContracting := [1]
  lhsBatch := []
  rhsBatch := []
  wf := dot_S64x256x512_S512x256_S64x256x256_2_0_01_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.Finite.lean ====
/-
  What the precondition says of the inputs: every entry is a real number.

  The precondition is the conjunction, over the six inputs, of "every entry `x` has `|x| < +∞`", each
  conjunct an `and`-reduction of the elementwise comparison down to one bit. A conjunction of bits that is 1
  has every bit 1; an `and`-reduction that is 1 has every element 1; and an extended real whose absolute value
  (`max x (-x)`) lies strictly below `⊤` is neither `⊤` nor `⊥`, hence the coercion of a real. The value
  proof needs this of the two activation tensors and of the projection weight.
-/
import proofs.«111862_j34686155882576_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

variable [Cert.Pre_finite_inputs.Facts]
open Cert.Pre_finite_inputs.Facts

/-- The rank-0 shape has one index. -/
instance : Subsingleton S_.Idx := ⟨fun a b => funext fun d => d.elim0⟩

/-- The float pattern of `+∞` denotes `⊤`. -/
theorem inf_eq_top : Ideal.ofBits .f32 0x7F800000#32 = ⊤ := by simp [Ideal.ofBits, Ideal.ieee]

/-- An extended real whose absolute value compares strictly below `+∞` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  rw [Ideal.cmpf_def, Ideal.hostAbsf_def, Ideal.absf_def, Ideal.ofBits_def, inf_eq_top] at h
  induction x using EReal.rec with
  | bot => simp [Ideal.cmp] at h
  | top => simp [Ideal.cmp] at h
  | coe r => exact ⟨r, rfl⟩

/-- Under the precondition the two activation tensors and the projection weight hold real numbers. -/
theorem real_of_pre (a0 a1 : FVec Ideal S64x256x512 .f32) (a2 : FVec Ideal S1024x256 .f32) (a3 : FVec Ideal S256 .f32)
    (a4 : FVec Ideal S256x1 .f32) (a5 : FVec Ideal S1 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn, fn_part1] at h0
  simp only [andi, IntOp.andi_eq_one] at h0
  obtain ⟨⟨⟨⟨⟨h3, h7⟩, h12⟩, _⟩, _⟩, _⟩ := h0
  exact ⟨fun i => real_of_abs_lt_inf _ (Host.reduce_andi_all _ _ _ _ _ h3 i),
    fun i => real_of_abs_lt_inf _ (Host.reduce_andi_all _ _ _ _ _ h7 i),
    fun i => real_of_abs_lt_inf _ (Host.reduce_andi_all _ _ _ _ _ h12 i)⟩

end Cert.Finite

end
-- ==== Proof.Spec.lean ====
/-
  The function both programs compute, written once over the extended reals.

  For one batch row, an activation slab `a : [256 positions, 512 features]` contributes, to each hidden unit,
  the mean over the positions of its projection by a weight column `w : [512 features]`. The mean and the
  projection can be taken in either order:
    * pool, then project:   ∑_d ((∑_n a[n,d]) / 256) · w[d]          (`poolProject`)
    * project, then pool:   (0 + ∑_n ∑_d a[n,d] · w[d]) / 256        (`projectPool`)
  On real numbers the two are the same number (Proof/Law.lean); on the extended reals they are written apart,
  because exchanging the two sums with the division is a distributive law, and that fails at the infinities.

  A row's logit is `∑_k ((A₁[k] + A₂[k]) + bg[k]) · wf[k] + bf` over the 256 hidden units (`rowLogit`), where
  `A₁`, `A₂` are the two tensors' pooled projections (the first tensor against rows 0..511 of the weight
  `[1024, 256]`, the second against rows 512..1023), and the result `[64, 1]` is the logistic function of
  each row's logit (`G` pool-first, `G'` project-first).
-/
import Idealize.ShloMosaic.PureOps.Ideal
import Idealize.ShloMosaic.Lib.ValueIdx

noncomputable section

open scoped BigOperators

namespace Cert.Spec

open Idealize.ShloMosaic Idealize.ShloMosaic.ValueIdx

/-- An activation tensor `[64, 256, 512]`: batch row, position, feature. -/
abbrev Acts := (⟨3, ![64, 256, 512]⟩ : Shape).Idx → EReal
/-- The projection weight `[1024, 256]`: the first 512 rows act on the first tensor, the last 512 on the second. -/
abbrev Wts := (⟨2, ![1024, 256]⟩ : Shape).Idx → EReal

/-- The float `256.0`, the number of positions the mean divides by. -/
abbrev c256 : EReal := Ideal.ofBits .f32 0x43800000#32

/-- Row `d` of the weight's first half. -/
def lo (d : Fin 512) : Fin 1024 := ⟨d.val, by have := d.isLt; omega⟩
/-- Row `d` of the weight's second half. -/
def hi (d : Fin 512) : Fin 1024 := ⟨512 + d.val, by have := d.isLt; omega⟩

/-- Pool, then project: the mean over the positions first, then the product with the weight column. -/
def poolProject (a : Fin 256 → Fin 512 → EReal) (w : Fin 512 → EReal) : EReal :=
  ∑ d : Fin 512, Ideal.div (∑ n : Fin 256, a n d) c256 * w d

/-- Project, then pool: every position projected by the weight column, then the mean over the positions
    (a sum from the float zero, divided by 256). -/
def projectPool (a : Fin 256 → Fin 512 → EReal) (w : Fin 512 → EReal) : EReal :=
  Ideal.div (Ideal.ofBits .f32 0x00000000#32 + ∑ n : Fin 256, ∑ d : Fin 512, a n d * w d) c256

/-- A row's logit from the two tensors' pooled projections `A₁`, `A₂`: the hidden vector `(A₁ + A₂) + bg`
    contracted with the output column `wf`, plus the output bias `bf`. -/
def rowLogit (A₁ A₂ bg wf : Fin 256 → EReal) (bf : EReal) : EReal :=
  (∑ k : Fin 256, ((A₁ k + A₂ k) + bg k) * wf k) + bf

/-- The batch row an index of the `[64, 1]` result names. -/
def row (i : (⟨2, ![64, 1]⟩ : Shape).Idx) : Fin 64 := ⟨(i 0).val, idx2_lt0 i⟩

/-- The result `[64, 1]`, the pooled projections taken pool-first. -/
def G (X₁ X₂ : Acts) (W : Wts) (bg : (⟨1, ![256]⟩ : Shape).Idx → EReal)
    (wf : (⟨2, ![256, 1]⟩ : Shape).Idx → EReal) (bf : (⟨1, ![1]⟩ : Shape).Idx → EReal) :
    (⟨2, ![64, 1]⟩ : Shape).Idx → EReal :=
  fun i => Ideal.logistic (rowLogit
    (fun k => poolProject (fun n d => X₁ (ix3 (row i) n d)) (fun d => W (ix2 (lo d) k)))
    (fun k => poolProject (fun n d => X₂ (ix3 (row i) n d)) (fun d => W (ix2 (hi d) k)))
    (fun k => bg (ix1 k)) (fun k => wf (ix2 k (0 : Fin 1))) (bf (ix1 (0 : Fin 1))))

/-- The result `[64, 1]`, the pooled projections taken project-first. -/
def G' (X₁ X₂ : Acts) (W : Wts) (bg : (⟨1, ![256]⟩ : Shape).Idx → EReal)
    (wf : (⟨2, ![256, 1]⟩ : Shape).Idx → EReal) (bf : (⟨1, ![1]⟩ : Shape).Idx → EReal) :
    (⟨2, ![64, 1]⟩ : Shape).Idx → EReal :=
  fun i => Ideal.logistic (rowLogit
    (fun k => projectPool (fun n d => X₁ (ix3 (row i) n d)) (fun d => W (ix2 (lo d) k)))
    (fun k => projectPool (fun n d => X₂ (ix3 (row i) n d)) (fun d => W (ix2 (hi d) k)))
    (fun k => bg (ix1 k)) (fun k => wf (ix2 k (0 : Fin 1))) (bf (ix1 (0 : Fin 1))))

end Cert.Spec

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibColumn.lean ====
/-
  One layout operation read at an index written by coordinates: a column `[a, 1]` cast to the vector `[a]`
  (what taking the one column of a one-column matrix prints as). A general lemma: any element type, any
  extent.
-/
import Idealize.ShloMosaic.Lib.Pipeline.Value
import Idealize.ShloMosaic.Lib.ValueIdx

namespace Cert.LibColumn

open Idealize.ShloMosaic Idealize.ShloMosaic.ValueIdx

variable {α : Type}

/-- An `[a, 1]` column cast to `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn
-- ==== Proof.Payload.lean ====
/-
  The kernel body's stored value, read at one entry.

  At a grid point the body holds a block of 8 batch rows of each activation tensor (`x₁`, `x₂ : [8, 256, 512]`),
  the two halves of the projection weight (`w₁`, `w₂ : [512, 256]`), the hidden bias `[256]`, the output column
  `[256, 1]` and the output bias `[1]`, and stores an `[8, 1]` column. Read at row `p` that column is the
  logistic function of the row's logit with the pooled projections taken pool-first: each tensor's sum over
  the 256 positions divided by 256, contracted over the 512 features with its half of the weight (a matrix
  product into a zero accumulator is the plain sum of products; a change of float format is the identity on
  extended reals), the two added, the hidden bias added along the rows, the product with the output column
  summed over the 256 hidden units, and the output bias added.
-/
import proofs.«111862_j34686155882576_2_alg».proof.Proof.Gen.KernelIdeal.Skeleton
import proofs.«111862_j34686155882576_2_alg».proof.Proof.Spec
import proofs.«111862_j34686155882576_2_alg».proof.Proof.LibKeepdims
import proofs.«111862_j34686155882576_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Spec

/-- The sum over the 256 positions of an `[8, 256, 512]` block, at row `p` and feature `d`. -/
theorem positions_sum_apply (x : FVec Ideal S8x256x512 .f32) (h : S8x256x512.Reduces [1] S8x512)
    (hφ : FKind.Formats .f32) (hacc : (0x00000000#32 : BitVec 32) = 0x00000000#32) (p : Fin 8) (d : Fin 512) :
    multiReduction .add [1] S8x512 x 0x00000000#32 h hφ hacc (ix2 p d) = ∑ n : Fin 256, x (ix3 p n d) := by
  refine (Ideal.multiReduction_add_single x 0x00000000#32 h hφ hacc (ix2 p d)).trans ?_
  refine Finset.sum_congr rfl fun n _ => congrArg x ?_
  funext c
  refine Fin.ext ?_
  match c with
  | ⟨0, _⟩ => rfl
  | ⟨1, _⟩ => rfl
  | ⟨2, _⟩ => rfl

/-- The sum over the 256 hidden units of an `[8, 256]` block, at row `p`. -/
theorem hidden_sum_apply (x : FVec Ideal S8x256 .f32) (h : S8x256.Reduces [1] S8)
    (hφ : FKind.Formats .f32) (hacc : (0x00000000#32 : BitVec 32) = 0x00000000#32) (p : Fin 8) :
    multiReduction .add [1] S8 x 0x00000000#32 h hφ hacc (ix1 p) = ∑ k : Fin 256, x (ix2 p k) := by
  refine (Ideal.multiReduction_add_single x 0x00000000#32 h hφ hacc (ix1 p)).trans ?_
  refine Finset.sum_congr rfl fun k _ => congrArg x ?_
  funext c
  refine Fin.ext ?_
  match c with
  | ⟨0, _⟩ => rfl
  | ⟨1, _⟩ => rfl

/-- The row coordinate of the left operand's index is the output's row. -/
theorem project_lhs_0 (i : S8x256.Idx) (q : dot_S8x512_S512x256_S8x256_1_0_0_1_n_n.contr.Idx) :
    (dot_S8x512_S512x256_S8x256_1_0_0_1_n_n.lhsIdx i q 0).val = (i 0).val := by
  unfold DotDims.lhsIdx
  rw [dif_neg (show ¬(0 : Fin S8x512.rank) ∈ dot_S8x512_S512x256_S8x256_1_0_0_1_n_n.lhsBatch by decide),
    dif_pos (show (0 : Fin S8x512.rank) ∈ dot_S8x512_S512x256_S8x256_1_0_0_1_n_n.lhsNonContracting by decide)]
  rfl
/-- The column coordinate of the left operand's index is the contracted feature. -/
theorem project_lhs_1 (i : S8x256.Idx) (q : dot_S8x512_S512x256_S8x256_1_0_0_1_n_n.contr.Idx) :
    (dot_S8x512_S512x256_S8x256_1_0_0_1_n_n.lhsIdx i q 1).val = (q ⟨0, by decide⟩).val :=
  dot_S8x512_S512x256_S8x256_1_0_0_1_n_n.lhsIdx_val_of_single rfl i q
/-- The row coordinate of the right operand's index is the contracted feature. -/
theorem project_rhs_0 (i : S8x256.Idx) (q : dot_S8x512_S512x256_S8x256_1_0_0_1_n_n.contr.Idx) :
    (dot_S8x512_S512x256_S8x256_1_0_0_1_n_n.rhsIdx i q 0).val = (q ⟨0, by decide⟩).val :=
  dot_S8x512_S512x256_S8x256_1_0_0_1_n_n.rhsIdx_val_of_single rfl i q
/-- The column coordinate of the right operand's index is the output's column. -/
theorem project_rhs_1 (i : S8x256.Idx) (q : dot_S8x512_S512x256_S8x256_1_0_0_1_n_n.contr.Idx) :
    (dot_S8x512_S512x256_S8x256_1_0_0_1_n_n.rhsIdx i q 1).val = (i 1).val := by
  unfold DotDims.rhsIdx
  rw [dif_neg (show ¬(1 : Fin S512x256.rank) ∈ dot_S8x512_S512x256_S8x256_1_0_0_1_n_n.rhsBatch by decide),
    dif_pos (show (1 : Fin S512x256.rank) ∈ dot_S8x512_S512x256_S8x256_1_0_0_1_n_n.rhsNonContracting by decide)]
  rfl

/-- The `[8, 512] × [512, 256]` matrix product into a zero accumulator, at `(p, k)`: the sum over the 512
    features of the products. -/
theorem project_apply (l : FVec Ideal S8x512 .bf16) (r : FVec Ideal S512x256 .bf16) (p : Fin 8) (k : Fin 256) :
    matmul dot_S8x512_S512x256_S8x256_1_0_0_1_n_n none l r (constant S8x256 .f32 0x00000000#32) (ix2 p k)
      = ∑ d : Fin 512, l (ix2 p d) * r (ix2 d k) := by
  simp only [matmul]
  rw [Ideal.matmul_constant_zero_apply, ← Equiv.sum_comp (contrEquiv1 dot_S8x512_S512x256_S8x256_1_0_0_1_n_n 512 rfl rfl).symm]
  refine Finset.sum_congr rfl fun d _ => ?_
  have hk := contrEquiv1_symm_val dot_S8x512_S512x256_S8x256_1_0_0_1_n_n 512 rfl rfl d
  have el : dot_S8x512_S512x256_S8x256_1_0_0_1_n_n.lhsIdx (ix2 p k) ((contrEquiv1 dot_S8x512_S512x256_S8x256_1_0_0_1_n_n 512 rfl rfl).symm d) = ix2 p d :=
    funext fun a => Fin.ext (by
      match a with
      | ⟨0, _⟩ => exact project_lhs_0 _ _
      | ⟨1, _⟩ => exact (project_lhs_1 _ _).trans hk)
  have er : dot_S8x512_S512x256_S8x256_1_0_0_1_n_n.rhsIdx (ix2 p k) ((contrEquiv1 dot_S8x512_S512x256_S8x256_1_0_0_1_n_n 512 rfl rfl).symm d) = ix2 d k :=
    funext fun a => Fin.ext (by
      match a with
      | ⟨0, _⟩ => exact (project_rhs_0 _ _).trans hk
      | ⟨1, _⟩ => exact project_rhs_1 _ _)
  rw [el, er]

/-- A pooled block (the sum over the positions divided by 256, in either float format) projected by a
    weight half, at `(p, k)`. -/
theorem pooled_project_apply (x : FVec Ideal S8x256x512 .f32) (w : FVec Ideal S512x256 .f32)
    (h : S8x256x512.Reduces [1] S8x512) (hφ : FKind.Formats .f32) (hacc : (0x00000000#32 : BitVec 32) = 0x00000000#32)
    (hb : FTy.bf16.bits < FTy.f32.bits) (p : Fin 8) (k : Fin 256) :
    matmul dot_S8x512_S512x256_S8x256_1_0_0_1_n_n none
        (truncf .bf16 (divf (multiReduction .add [1] S8x512 x 0x00000000#32 h hφ hacc)
          (broadcast S8x512 (Scalar.ofBits (F := Ideal) .f32 0x43800000#32))) hb)
        (truncf .bf16 w hb) (constant S8x256 .f32 0x00000000#32) (ix2 p k)
      = poolProject (fun n d => x (ix3 p n d)) (fun d => w (ix2 d k)) := by
  refine (project_apply _ _ p k).trans ?_
  unfold poolProject
  refine Finset.sum_congr rfl fun d _ => ?_
  exact congrArg (fun s => Ideal.div s c256 * w (ix2 d k)) (positions_sum_apply x h hφ hacc p d)

/-- The body's stored value at row `p`: the logistic function of the row's logit, pool-first, over the blocks
    it loaded. -/
theorem pay_apply (x₁ x₂ : Vec Ideal S8x256x512 .f32) (w₁ w₂ : Vec Ideal S512x256 .f32) (bg : Vec Ideal S256 .f32)
    (wf : Vec Ideal S256x1 .f32) (bf : Vec Ideal S1 .f32) (p : Fin 8) (u : Fin 1) :
    k0_pay1 (F := Ideal) x₁ x₂ w₁ w₂ bg wf bf (ix2 p u)
      = Ideal.logistic (rowLogit
          (fun k => poolProject (fun n d => x₁ (ix3 p n d)) (fun d => w₁ (ix2 d k)))
          (fun k => poolProject (fun n d => x₂ (ix3 p n d)) (fun d => w₂ (ix2 d k)))
          (fun k => bg (ix1 k)) (fun k => wf (ix2 k (0 : Fin 1))) (bf (ix1 (0 : Fin 1)))) := by
  obtain rfl : u = 0 := Subsingleton.elim _ _
  unfold k0_pay1 rowLogit
  refine congrArg Ideal.logistic ?_
  refine congrArg₂ (· + ·) ?_ ?_
  · refine (LibKeepdims.shapeCast_a_a1_apply _ _ p 0).trans ?_
    refine (hidden_sum_apply _ _ _ _ p).trans ?_
    refine Finset.sum_congr rfl fun k _ => ?_
    refine congrArg₂ (· * ·) (congrArg₂ (· + ·) (congrArg₂ (· + ·) ?_ ?_) ?_) ?_
    · exact pooled_project_apply x₁ w₁ _ _ _ _ p k
    · exact pooled_project_apply x₂ w₂ _ _ _ _ p k
    · exact (broadcastTo_1b_ab_apply _ _ p k).trans (shapeCast_a_1a_apply _ _ 0 k)
    · exact (broadcastTo_1b_ab_apply _ _ p k).trans
        ((shapeCast_a_1a_apply _ _ 0 k).trans (LibColumn.shapeCast_a1_a_apply _ _ k))
  · exact (broadcastTo_1b_ab_apply _ _ p 0).trans (shapeCast_a_1a_apply _ _ 0 0)

end Cert.KernelIdeal.Payload

end
-- ==== Proof.KernelValue.lean ====
/-
  The kernel's result array is `G`: the pool-first reading.

  The grid has 8 points; point `t` holds rows `8t .. 8t+7` of each activation tensor, the whole weight, both
  biases and the whole output column, and writes back rows `8t .. 8t+7` of the `[64, 1]` result. What it
  writes at row `p` of its block is the logistic function of that row's pool-first logit over the blocks
  (Proof/Payload.lean), and a block's entry is the array's entry at the block's offset (rows moved by `8t`,
  everything else in place), so point `t` writes block `t` of the one whole-array function `G`. The 8 row
  blocks cover the 64 rows, so the array ends holding `G`.
-/
import proofs.«111862_j34686155882576_2_alg».proof.Proof.Gen.KernelIdeal.Value
import proofs.«111862_j34686155882576_2_alg».proof.Proof.Payload
import Idealize.ShloMosaic.Lib.Pipeline.Value

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.Spec

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Equal slabs and equal weight columns have equal pooled projections. -/
theorem poolProject_congr {a a' : Fin 256 → Fin 512 → EReal} {w w' : Fin 512 → EReal} (ha : a = a') (hw : w = w') :
    poolProject a w = poolProject a' w' := by rw [ha, hw]

/-- Equal ingredients give equal logits. -/
theorem rowLogit_congr {A₁ A₁' A₂ A₂' bg bg' wf wf' : Fin 256 → EReal} {bf bf' : EReal} (h₁ : A₁ = A₁') (h₂ : A₂ = A₂')
    (h₃ : bg = bg') (h₄ : wf = wf') (h₅ : bf = bf') : rowLogit A₁ A₂ bg wf bf = rowLogit A₁' A₂' bg' wf' bf' := by
  rw [h₁, h₂, h₃, h₄, h₅]

/-- What the body leaves in the output's staging buffer, at row `p`, from the blocks the windows hold: the
    weight's two halves are rows `0..511` and `512..1023` of its one block. -/
theorem out_apply (x0 x1 : Vec Ideal S8x256x512 .f32) (x2 : Vec Ideal S1024x256 .f32) (x3 : Vec Ideal S256 .f32)
    (x4 : Vec Ideal S256x1 .f32) (x5 : Vec Ideal S1 .f32) (p : Fin 8) (u : Fin 1) :
    out0_6 x0 x1 x2 x3 x4 x5 (ix2 p u)
      = Ideal.logistic (rowLogit
          (fun k => poolProject (fun n d => x0 (ix3 p n d)) (fun d => x2 (ix2 (lo d) k)))
          (fun k => poolProject (fun n d => x1 (ix3 p n d)) (fun d => x2 (ix2 (hi d) k)))
          (fun k => x3 (ix1 k)) (fun k => x4 (ix2 k (0 : Fin 1))) (x5 (ix1 (0 : Fin 1)))) := by
  unfold out0_6
  rw [View.canon_unit_zero hz2]
  simp only [View.ld_unit_zero (S := S8x256x512) hz3, View.ld_unit_zero (S := S256) hz1,
    View.ld_unit_zero (S := S256x1) hz2, View.ld_unit_zero (S := S1) hz1]
  rw [Payload.pay_apply]
  have l1 : ∀ (d : Fin 512) (k : Fin 256), View.ld x2 r0_1 (ix2 d k) = x2 (ix2 (lo d) k) := fun d k =>
    congrArg x2 (funext fun a => Fin.ext (by
      match a with
      | ⟨0, _⟩ => show 0 + 1 * d.val = d.val; omega
      | ⟨1, _⟩ => show 0 + 1 * k.val = k.val; omega))
  have l2 : ∀ (d : Fin 512) (k : Fin 256), View.ld x2 r0_2 (ix2 d k) = x2 (ix2 (hi d) k) := fun d k =>
    congrArg x2 (funext fun a => Fin.ext (by
      match a with
      | ⟨0, _⟩ => show 512 + 1 * d.val = 512 + d.val; omega
      | ⟨1, _⟩ => show 0 + 1 * k.val = k.val; omega))
  simp only [l1, l2]

/-- The printed index maps, decided over the 8 grid points: the activation tensors' and the result's blocks move
    along the rows with the point, every other window's one block stays at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The first activation tensor's block at point `t`: rows `8t .. 8t+7` of the array. -/
theorem acts1_block (c : Dev nD) (t : Fin cfg0.N) (x : S8x256x512.Idx) (k : S64x256x512.Idx)
    (hk0 : (k 0).val = 8 * t.val + (x 0).val) (hk1 : (k 1).val = (x 1).val) (hk2 : (k 2).val = (x 2).val) :
    (iblk m c 0 t : Vec Ideal S8x256x512 .f32) x = (V m c main_arg0 : S64x256x512.Idx → Elt Ideal .f32) k := by
  obtain ⟨e0, e1, e2, -⟩ := idx_facts t
  unfold iblk
  rw [View.read_apply]
  show V m c main_arg0 _ = V m c main_arg0 _
  refine congrArg _ (funext fun a => Fin.ext ?_)
  match a with
  | ⟨0, _⟩ => show win0_0.index t (0 : Fin 3) * 8 + 1 * (x 0).val = (k 0).val; rw [e0, hk0]; omega
  | ⟨1, _⟩ => show win0_0.index t (1 : Fin 3) * 256 + 1 * (x 1).val = (k 1).val; rw [e1, hk1]; omega
  | ⟨2, _⟩ => show win0_0.index t (2 : Fin 3) * 512 + 1 * (x 2).val = (k 2).val; rw [e2, hk2]; omega

/-- The second activation tensor's block at point `t`: rows `8t .. 8t+7` of the array. -/
theorem acts2_block (c : Dev nD) (t : Fin cfg0.N) (x : S8x256x512.Idx) (k : S64x256x512.Idx)
    (hk0 : (k 0).val = 8 * t.val + (x 0).val) (hk1 : (k 1).val = (x 1).val) (hk2 : (k 2).val = (x 2).val) :
    (iblk m c 1 t : Vec Ideal S8x256x512 .f32) x = (V m c main_arg1 : S64x256x512.Idx → Elt Ideal .f32) k := by
  obtain ⟨-, -, -, e0, e1, e2, -⟩ := idx_facts t
  unfold iblk
  rw [View.read_apply]
  show V m c main_arg1 _ = V m c main_arg1 _
  refine congrArg _ (funext fun a => Fin.ext ?_)
  match a with
  | ⟨0, _⟩ => show win0_1.index t (0 : Fin 3) * 8 + 1 * (x 0).val = (k 0).val; rw [e0, hk0]; omega
  | ⟨1, _⟩ => show win0_1.index t (1 : Fin 3) * 256 + 1 * (x 1).val = (k 1).val; rw [e1, hk1]; omega
  | ⟨2, _⟩ => show win0_1.index t (2 : Fin 3) * 512 + 1 * (x 2).val = (k 2).val; rw [e2, hk2]; omega

/-- The weight's one block is the whole array, at every point. -/
theorem weight_block (c : Dev nD) (t : Fin cfg0.N) (x : S1024x256.Idx) :
    (iblk m c 2 t : Vec Ideal S1024x256 .f32) x = (V m c main_arg2 : S1024x256.Idx → Elt Ideal .f32) x := by
  obtain ⟨-, -, -, -, -, -, e0, e1, -⟩ := idx_facts t
  unfold iblk
  rw [View.read_apply]
  show V m c main_arg2 _ = V m c main_arg2 _
  refine congrArg _ (funext fun a => Fin.ext ?_)
  match a with
  | ⟨0, _⟩ => show win0_2.index t (0 : Fin 2) * 1024 + 1 * (x 0).val = (x 0).val; rw [e0]; omega
  | ⟨1, _⟩ => show win0_2.index t (1 : Fin 2) * 256 + 1 * (x 1).val = (x 1).val; rw [e1]; omega

/-- The hidden bias's one block is the whole array, at every point. -/
theorem hidden_bias_block (c : Dev nD) (t : Fin cfg0.N) (x : S256.Idx) :
    (iblk m c 3 t : Vec Ideal S256 .f32) x = (V m c main_arg3 : S256.Idx → Elt Ideal .f32) x := by
  obtain ⟨-, -, -, -, -, -, -, -, e0, -⟩ := idx_facts t
  unfold iblk
  rw [View.read_apply]
  show V m c main_arg3 _ = V m c main_arg3 _
  refine congrArg _ (funext fun a => Fin.ext ?_)
  match a with
  | ⟨0, _⟩ => show win0_3.index t (0 : Fin 1) * 256 + 1 * (x 0).val = (x 0).val; rw [e0]; omega

/-- The output column's one block is the whole array, at every point. -/
theorem column_block (c : Dev nD) (t : Fin cfg0.N) (x : S256x1.Idx) :
    (iblk m c 4 t : Vec Ideal S256x1 .f32) x = (V m c main_arg4 : S256x1.Idx → Elt Ideal .f32) x := by
  obtain ⟨-, -, -, -, -, -, -, -, -, e0, e1, -⟩ := idx_facts t
  unfold iblk
  rw [View.read_apply]
  show V m c main_arg4 _ = V m c main_arg4 _
  refine congrArg _ (funext fun a => Fin.ext ?_)
  match a with
  | ⟨0, _⟩ => show win0_4.index t (0 : Fin 2) * 256 + 1 * (x 0).val = (x 0).val; rw [e0]; omega
  | ⟨1, _⟩ => show win0_4.index t (1 : Fin 2) * 1 + 1 * (x 1).val = (x 1).val; rw [e1]; omega

/-- The output bias's one block is the whole array, at every point. -/
theorem out_bias_block (c : Dev nD) (t : Fin cfg0.N) (x : S1.Idx) :
    (iblk m c 5 t : Vec Ideal S1 .f32) x = (V m c main_arg5 : S1.Idx → Elt Ideal .f32) x := by
  obtain ⟨-, -, -, -, -, -, -, -, -, -, -, e0, -⟩ := idx_facts t
  unfold iblk
  rw [View.read_apply]
  show V m c main_arg5 _ = V m c main_arg5 _
  refine congrArg _ (funext fun a => Fin.ext ?_)
  match a with
  | ⟨0, _⟩ => show win0_5.index t (0 : Fin 1) * 1 + 1 * (x 0).val = (x 0).val; rw [e0]; omega

/-- The result as one function of the arrays the region finds. -/
abbrev result (c : Dev nD) : S64x1.Idx → Elt Ideal .f32 :=
  G (V m c main_arg0) (V m c main_arg1) (V m c main_arg2) (V m c main_arg3) (V m c main_arg4) (V m c main_arg5)

/-- What point `t` leaves at entry `j` of the output's staging buffer is `G` at the entry's place in the array. -/
theorem out_point (c : Dev nD) (t : Fin cfg0.N) (j : S8x1.Idx) :
    (out0_6 (iblk m c 0 t) (iblk m c 1 t) (iblk m c 2 t) (iblk m c 3 t) (iblk m c 4 t) (iblk m c 5 t) : Vec Ideal S8x1 .f32) j
      = result m c (((cfg0.win 6).blk t).view.emb j) := by
  obtain ⟨p, u, rfl⟩ : ∃ (p : Fin 8) (u : Fin 1), j = ix2 p u := ⟨j 0, j 1, eq_ix2 j⟩
  obtain ⟨-, -, -, -, -, -, -, -, -, -, -, -, e0, -⟩ := idx_facts t
  have hrow : (row (((cfg0.win 6).blk t).view.emb (ix2 p u))).val = 8 * t.val + p.val := by
    show win0_6.index t (0 : Fin 2) * 8 + 1 * p.val = 8 * t.val + p.val
    rw [e0]; omega
  rw [out_apply]
  unfold result G
  refine congrArg Ideal.logistic ?_
  refine rowLogit_congr
    (funext fun k => poolProject_congr (funext fun n => funext fun d => ?_) (funext fun d => ?_))
    (funext fun k => poolProject_congr (funext fun n => funext fun d => ?_) (funext fun d => ?_))
    (funext fun k => ?_) (funext fun k => ?_) ?_
  · exact acts1_block m c t _ _ hrow rfl rfl
  · exact weight_block m c t _
  · exact acts2_block m c t _ _ hrow rfl rfl
  · exact weight_block m c t _
  · exact hidden_bias_block m c t _
  · exact column_block m c t _
  · exact out_bias_block m c t _

/-- What point `t` writes back is block `t` of `G`. -/
theorem flushed_eq (c : Dev nD) (t : Fin cfg0.N) :
    (dats m 0 c).flushed 6 t = ((cfg0.win 6).blk t).view.read (Elt Ideal) (result m c) := by
  rw [flushed6]
  funext j
  exact out_point m c t j

/-- An index of the result is in point `t`'s block iff each coordinate is in the block's range on its axis. -/
theorem mem_blk (t : Fin cfg0.N) (i : S64x1.Idx) :
    i ∈ ((cfg0.win 6).blk t).view.set ↔ ∀ a : Fin 2, win0_6.index t a * S8x1.size a ≤ (i a).val ∧ (i a).val < win0_6.index t a * S8x1.size a + S8x1.size a := by
  show i ∈ ((View.whole main_v0).slice (win0_6.rect t)).set ↔ _
  rw [View.set_slice_whole, Rect.mem_set_unit]
  exact Iff.rfl

/-- The 8 row blocks cover the 64 rows: row `r` is in the block of point `r / 8`. -/
theorem cover (i : S64x1.Idx) : ∃ t : Fin cfg0.N, (cfg0.win 6).flush t = true ∧ i ∈ ((cfg0.win 6).blk t).view.set := by
  have hN : cfg0.N = 8 := N_0
  have hi0 : (i 0).val < 64 := (i 0).isLt
  have hi1 : (i 1).val < 1 := (i 1).isLt
  refine ⟨⟨(i 0).val / 8, by omega⟩, flush0_6 _, ?_⟩
  rw [mem_blk]
  obtain ⟨-, -, -, -, -, -, -, -, -, -, -, -, e0, e1⟩ := idx_facts ⟨(i 0).val / 8, by omega⟩
  intro a
  match a with
  | ⟨0, _⟩ =>
    show win0_6.index ⟨(i 0).val / 8, _⟩ (0 : Fin 2) * 8 ≤ (i 0).val ∧ (i 0).val < win0_6.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_6.index ⟨(i 0).val / 8, _⟩ (1 : Fin 2) * 1 ≤ (i 1).val ∧ (i 1).val < win0_6.index ⟨(i 0).val / 8, _⟩ (1 : Fin 2) * 1 + 1
    rw [e1]; omega

/-- So the result array ends holding `G` of the arrays the region found. -/
theorem final (c : Dev nD) : (dats m 0 c).arrAt 6 cfg0.N = result m c :=
  (dats m 0 c).arrAt_eq_of_cover 6 (result m c) (fun t _ => flushed_eq m c t) cover

/-- The kernel's run, read: the result array at `G` of the arguments as launched, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Hand

end
-- ==== Proof.Law.lean ====
/-
  Pooling and projecting commute on finite inputs.

  With every entry of the slab `a` and of the weight column `w` a real number, both `poolProject a w` and
  `projectPool a w` are the real number `(∑_n ∑_d a[n,d] · w[d]) / 256`: division by 256 is multiplication
  by 1/256, which distributes over the finite sums, and the two sums exchange. The computation is done in ℝ
  and carried to the extended reals by the coercion, which is additive and multiplicative on reals. So the
  two readings `G` and `G'` of the result agree when the activation tensors and the weight hold real numbers.
-/
import proofs.«111862_j34686155882576_2_alg».proof.Proof.Spec
import Idealize.ShloMosaic.PureOps.Ideal.Laws

noncomputable section

open scoped BigOperators

namespace Cert.Spec

open Idealize.ShloMosaic Idealize.ShloMosaic.ValueIdx

/-- The coercion of reals into the extended reals carries a finite sum to the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The float `256.0` denotes the real number 256. -/
theorem c256_eq : c256 = ((256 : ℝ) : EReal) := by
  unfold c256
  simp [Ideal.ofBits, Ideal.ieee, -EReal.coe_mul]; norm_num

/-- The float `1.0` denotes 1. -/
theorem one_eq : Ideal.ofBits .f32 0x3F800000#32 = 1 := by
  simp [Ideal.ofBits, Ideal.ieee, -EReal.coe_mul]; norm_num

/-- On real entries, pooling then projecting is projecting then pooling. -/
theorem poolProject_eq_projectPool (a : Fin 256 → Fin 512 → EReal) (w : Fin 512 → EReal)
    (ha : ∀ n d, ∃ x : ℝ, a n d = (x : EReal)) (hw : ∀ d, ∃ y : ℝ, w d = (y : EReal)) :
    poolProject a w = projectPool a w := by
  choose x hx using ha
  choose y hy using hw
  unfold poolProject projectPool
  simp only [hx, hy, c256_eq, Ideal.ofBits_zero_f32, zero_add, Ideal.div_coe (by norm_num : (256 : ℝ) ≠ 0)]
  simp only [← EReal.coe_mul, ← coe_sum]
  refine congrArg _ ?_
  rw [Finset.sum_comm, Finset.sum_mul]
  refine Finset.sum_congr rfl fun d _ => ?_
  rw [Finset.sum_mul, Finset.sum_mul, Finset.sum_mul]
  refine Finset.sum_congr rfl fun n _ => ?_
  ring

/-- The two readings of the result agree when the activation tensors and the weight hold real numbers. -/
theorem G_eq_G' (X₁ X₂ : Acts) (W : Wts) (bg : (⟨1, ![256]⟩ : Shape).Idx → EReal)
    (wf : (⟨2, ![256, 1]⟩ : Shape).Idx → EReal) (bf : (⟨1, ![1]⟩ : Shape).Idx → EReal)
    (h₁ : ∀ i, ∃ x : ℝ, X₁ i = (x : EReal)) (h₂ : ∀ i, ∃ x : ℝ, X₂ i = (x : EReal)) (hW : ∀ i, ∃ y : ℝ, W i = (y : EReal)) :
    G X₁ X₂ W bg wf bf = G' X₁ X₂ W bg wf bf := by
  funext i
  unfold G G'
  have e₁ : ∀ k, poolProject (fun n d => X₁ (ix3 (row i) n d)) (fun d => W (ix2 (lo d) k))
      = projectPool (fun n d => X₁ (ix3 (row i) n d)) (fun d => W (ix2 (lo d) k)) :=
    fun k => poolProject_eq_projectPool _ _ (fun n d => h₁ _) (fun d => hW _)
  have e₂ : ∀ k, poolProject (fun n d => X₂ (ix3 (row i) n d)) (fun d => W (ix2 (hi d) k))
      = projectPool (fun n d => X₂ (ix3 (row i) n d)) (fun d => W (ix2 (hi d) k)) :=
    fun k => poolProject_eq_projectPool _ _ (fun n d => h₂ _) (fun d => hW _)
  rw [funext e₁, funext e₂]

end Cert.Spec

end
-- ==== Proof.RefValue.lean ====
/-
  The reference's result is `G'`: the project-first reading.

  Read one operation at a time, the reference projects every position of each activation tensor by its half of
  the weight (a contraction over the 512 features), sums the projections over the 256 positions from the float
  zero and divides by 256, adds the two tensors' terms and the hidden bias broadcast along the rows, contracts
  the hidden vector with the one column of the output weight, adds the output bias, and applies
  `1 / (1 + exp (-x))`, which on the extended reals is the logistic function by definition (the float `1.0`
  denoting 1). Each index the composed operations read is, coordinate by coordinate, the index the
  specification names.
-/
import proofs.«111862_j34686155882576_2_alg».proof.Proof.Gen.ReferenceIdeal.Read
import proofs.«111862_j34686155882576_2_alg».proof.Proof.Spec
import proofs.«111862_j34686155882576_2_alg».proof.Proof.Law

noncomputable section

open scoped BigOperators

namespace Cert.ReferenceIdeal.RefValue

open Cert.ReferenceIdeal Cert.ReferenceIdeal.Read Idealize.ShloMosaic Idealize.ShloMosaic.ValueIdx Cert.Spec

/-- The reference's last stage, index by index, is the project-first reading of the result. -/
theorem ref_eq (x0 x1 : (⟨S64x256x512, .f32⟩ : BufTy).Contents (Elt Ideal)) (x2 : (⟨S1024x256, .f32⟩ : BufTy).Contents (Elt Ideal))
    (x3 : (⟨S256, .f32⟩ : BufTy).Contents (Elt Ideal)) (x4 : (⟨S256x1, .f32⟩ : BufTy).Contents (Elt Ideal))
    (x5 : (⟨S1, .f32⟩ : BufTy).Contents (Elt Ideal)) :
    val_main_v23 (F := Ideal) x0 x1 x2 x3 x4 x5 = G' x0 x1 x2 x3 x4 x5 := by
  funext i
  have a1 : ∀ (k : Fin 256) (n : Fin 256) (d : Fin 512),
      lidx_main_v2 (idx_main_v4 (lidx_main_v14 i k) n) d = ix3 (row i) n d := fun k n d =>
    funext fun a => Fin.ext (by match a with | ⟨0, _⟩ => rfl | ⟨1, _⟩ => rfl | ⟨2, _⟩ => rfl)
  have w1 : ∀ (k : Fin 256) (n : Fin 256) (d : Fin 512),
      idx_main_v0 (ridx_main_v2 (idx_main_v4 (lidx_main_v14 i k) n) d) = ix2 (lo d) k := fun k n d =>
    funext fun a => Fin.ext (by match a with | ⟨0, _⟩ => rfl | ⟨1, _⟩ => rfl)
  have a2 : ∀ (k : Fin 256) (n : Fin 256) (d : Fin 512),
      lidx_main_v3 (idx_main_v7 (lidx_main_v14 i k) n) d = ix3 (row i) n d := fun k n d =>
    funext fun a => Fin.ext (by match a with | ⟨0, _⟩ => rfl | ⟨1, _⟩ => rfl | ⟨2, _⟩ => rfl)
  have w2 : ∀ (k : Fin 256) (n : Fin 256) (d : Fin 512),
      idx_main_v1 (ridx_main_v3 (idx_main_v7 (lidx_main_v14 i k) n) d) = ix2 (hi d) k := fun k n d =>
    funext fun a => Fin.ext (by match a with | ⟨0, _⟩ => rfl | ⟨1, _⟩ => rfl)
  have b3 : ∀ k : Fin 256, idx_main_v11 (idx_main_v12 (lidx_main_v14 i k)) = ix1 k := fun k =>
    funext fun a => Fin.ext (by match a with | ⟨0, _⟩ => rfl)
  have b4 : ∀ k : Fin 256, ridx_main_v14 i k = ix2 k (0 : Fin 1) := fun k =>
    funext fun a => Fin.ext (by
      match a with
      | ⟨0, _⟩ => rfl
      | ⟨1, _⟩ => show (i 1).val = 0; have h1 : (i 1).val < 1 := (i 1).isLt; omega)
  have b5 : idx_main_v15 (idx_main_v16 i) = ix1 (0 : Fin 1) :=
    funext fun a => Fin.ext (by match a with | ⟨0, _⟩ => rfl)
  simp only [val_main_v23_apply, val_main_v22_apply, val_main_cst_4_apply, val_main_v21_apply, val_main_v20_apply,
    val_main_cst_3_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_cst_2_apply, val_main_v7_apply,
    val_main_cst_1_apply, val_main_v6_apply, val_main_v5_apply, val_main_cst_0_apply, val_main_v4_apply,
    val_main_cst_apply, val_main_v3_apply, val_main_v2_apply, val_main_v1_apply, val_main_v0_apply,
    a1, w1, a2, w2, b3, b4, b5,
    Ideal.hostDivf_def, Ideal.addf_def, Ideal.hostUnary_exp_def, Ideal.hostNegf_def, Ideal.negf_def, Ideal.ofBits_def,
    one_eq]
  rfl

end Cert.ReferenceIdeal.RefValue

end
-- ==== Proof.lean ====
/-
  The certificate's five claims.

  The three frames are the generated ones (the reference's is its generated run with the result dropped); the
  idealization rewrote nothing, so `preserves` is `True`. For the algebraic claim both programs are run from
  memories agreeing on the six arguments. The kernel's result array ends at `G`, the logistic function of each
  row's logit with every activation tensor pooled over its positions before it is projected by its half of the
  weight (Proof/KernelValue.lean); the reference's ends at `G'`, which projects every position first and pools
  afterwards (Proof/RefValue.lean). Under the precondition the activation tensors and the weight hold real
  numbers (Proof/Finite.lean), and there the two orders give the same number, because division by 256 and the
  products with the weight distribute over the finite sums and the sums exchange (Proof/Law.lean).
-/
import proofs.«111862_j34686155882576_2_alg».proof.Defs
import proofs.«111862_j34686155882576_2_alg».proof.Proof.Gen.Kernel
import proofs.«111862_j34686155882576_2_alg».proof.Proof.Gen.Kernel.Skeleton
import proofs.«111862_j34686155882576_2_alg».proof.Proof.Gen.Kernel.Launch
import proofs.«111862_j34686155882576_2_alg».proof.Proof.Gen.Kernel.Points
import proofs.«111862_j34686155882576_2_alg».proof.Proof.Gen.Kernel.Frame
import proofs.«111862_j34686155882576_2_alg».proof.Proof.Gen.KernelIdeal
import proofs.«111862_j34686155882576_2_alg».proof.Proof.Gen.KernelIdeal.Skeleton
import proofs.«111862_j34686155882576_2_alg».proof.Proof.Gen.KernelIdeal.Launch
import proofs.«111862_j34686155882576_2_alg».proof.Proof.Gen.KernelIdeal.Points
import proofs.«111862_j34686155882576_2_alg».proof.Proof.Gen.KernelIdeal.Frame
import proofs.«111862_j34686155882576_2_alg».proof.Proof.Gen.ReferenceIdeal
import proofs.«111862_j34686155882576_2_alg».proof.Proof.Gen.Pre_finite_inputs
import proofs.«111862_j34686155882576_2_alg».proof.Proof.Gen.KernelIdeal.Value
import proofs.«111862_j34686155882576_2_alg».proof.Proof.Gen.ReferenceIdeal.Run
import proofs.«111862_j34686155882576_2_alg».proof.Proof.Gen.ReferenceIdeal.Read
import proofs.«111862_j34686155882576_2_alg».proof.Proof.Finite
import proofs.«111862_j34686155882576_2_alg».proof.Proof.KernelValue
import proofs.«111862_j34686155882576_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the pool-first reading `G` of the arguments, the reference's at the
    project-first reading `G'` of arguments that agree with them; the precondition makes the activation tensors
    and the weight real-valued, where the two readings are one function. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h₁, h₂, hW⟩ := Cert.Finite.real_of_pre _ _ _ _ _ _ (hpre c)
  rw [Cert.ReferenceIdeal.Read.val_main_v23_eq, Cert.ReferenceIdeal.RefValue.ref_eq,
    (hagree c).1, (hagree c).2.1, (hagree c).2.2.1, (hagree c).2.2.2.1, (hagree c).2.2.2.2.1, (hagree c).2.2.2.2.2]
  exact (Cert.Spec.G_eq_G' _ _ _ _ _ _ h₁ h₂ hW).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
